-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S16777216 : Shape := ⟨1, ![16777216]⟩
abbrev S4096x32 : Shape := ⟨2, ![4096, 32]⟩
abbrev S32x32 : Shape := ⟨2, ![32, 32]⟩
abbrev S32x4096 : Shape := ⟨2, ![32, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S16777216 : S_.BroadcastsInDim S16777216 (![] : Fin 0 → Fin S16777216.rank)
  reducesTo_S16777216_S_d0 : S16777216.ReducesTo [0] S_
  bcast_S_S4096x32 : S_.BroadcastsInDim S4096x32 (![] : Fin 0 → Fin S4096x32.rank)
  reducesTo_S4096x32_S_d0_1 : S4096x32.ReducesTo [0, 1] S_
  bcast_S_S32x32 : S_.BroadcastsInDim S32x32 (![] : Fin 0 → Fin S32x32.rank)
  reducesTo_S32x32_S_d0_1 : S32x32.ReducesTo [0, 1] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_arg4 : FVec F S32x4096 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x4096 .f32 := Host.absf main_arg4
  let main_cst_6 : FVec F S_ .f32 := constant S_ .f32 0x7F800000#32
  let main_v20 : FVec F S32x4096 .f32 := broadcastInDim S32x4096 ![] bcast_S_S32x4096 main_cst_6
  let main_v21 : IVec S32x4096 1 := cmpf .olt main_v19 main_v20
  let main_c_7 : IVec S_ 1 := constantI S_ 1 1#1
  let main_v22 : IVec S_ 1 := (fun x v => Host.reduce IntOp.andi x v reducesTo_S32x4096_S_d0_1 h_S_) main_v21 main_c_7
  let main_v23 : IVec S_ 1 := andi main_v18 main_v22
  main_v23

def fn {F : FTy → Type} [FloatOps F] (main_arg0 : FVec F S8x2048x4096 .f32) (main_arg1 : FVec F S16777216 .f32) (main_arg2 : FVec F S4096x32 .f32) (main_arg3 : FVec F S32x32 .f32) (main_arg4 : FVec F S32x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S8x2048x4096 : Shape := ⟨3, ![8, 2048, 4096]⟩
abbrev S16777216 : Shape := ⟨1, ![16777216]⟩
abbrev S4096x32 : Shape := ⟨2, ![4096, 32]⟩
abbrev S32x32 : Shape := ⟨2, ![32, 32]⟩
abbrev S32x4096 : Shape := ⟨2, ![32, 4096]⟩
abbrev S16384x4096 : Shape := ⟨2, ![16384, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S16777216, .f32⟩
  | .hbm, ⟨2, _⟩ => ⟨S4096x32, .f32⟩
  | .hbm, ⟨3, _⟩ => ⟨S32x32, .f32⟩
  | .hbm, ⟨4, _⟩ => ⟨S32x4096, .f32⟩
  | .hbm, ⟨5, _⟩ => ⟨S16384x4096, .f32⟩
  | .hbm, ⟨6, _⟩ => ⟨S4096x4096, .f32⟩
  | .hbm, ⟨7, _⟩ => ⟨S16384x4096, .bf16⟩
  | .hbm, ⟨8, _⟩ => ⟨S4096x4096, .bf16⟩
  | .hbm, ⟨9, _⟩ => ⟨S16384x4096, .f32⟩
  | .hbm, ⟨10, _⟩ => ⟨S8x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x2048x4096_S16384x4096 : S8x2048x4096.ShapeCasts S16384x4096
  shapeCasts_S16777216_S4096x4096 : S16777216.ShapeCasts S4096x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x4096_S8x2048x4096 : S16384x4096.ShapeCasts S8x2048x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x4096.size a
  hwx0_2 : ∀ i : grid0.Coords, EltTy.bits .f32 = 32 ∨ (Rect.block (s := S16384x4096) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S16777216 : Shape := ⟨1, ![16777216]⟩
abbrev S4096x32 : Shape := ⟨2, ![4096, 32]⟩
abbrev S32x32 : Shape := ⟨2, ![32, 32]⟩
abbrev S32x4096 : Shape := ⟨2, ![32, 4096]⟩
abbrev S16384x4096 : Shape := ⟨2, ![16384, 4096]⟩
abbrev S4096x4096 : Shape := ⟨2, ![4096, 4096]⟩
abbrev S16384x32 : Shape := ⟨2, ![16384, 32]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16777216, .f32⟩
  | .hbm, ⟨2, _⟩ => ⟨S4096x32, .f32⟩
  | .hbm, ⟨3, _⟩ => ⟨S32x32, .f32⟩
  | .hbm, ⟨4, _⟩ => ⟨S32x4096, .f32⟩
  | .hbm, ⟨5, _⟩ => ⟨S16384x4096, .f32⟩
  | .hbm, ⟨6, _⟩ => ⟨S4096x4096, .f32⟩
  | .hbm, ⟨7, _⟩ => ⟨S4096x4096, .f32⟩
  | .hbm, ⟨8, _⟩ => ⟨S16384x4096, .f32⟩
  | .hbm, ⟨9, _⟩ => ⟨S4096x32, .f32⟩
  | .hbm, ⟨10, _⟩ => ⟨S16384x32, .f32⟩
  | .hbm, ⟨11, _⟩ => ⟨S32x32, .f32⟩
  | .hbm, ⟨12, _⟩ => ⟨S16384x32, .f32⟩
  | .hbm, ⟨13, _⟩ => ⟨S32x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S8x2048x4096_S16384x4096 : S8x2048x4096.ShapeCasts S16384x4096
  shapeCasts_S16777216_S4096x4096 : S16777216.ShapeCasts S4096x4096
  transposes_S4096x4096_S4096x4096_1_0 : S4096x4096.Transposes [1, 0] S4096x4096
  transposes_S32x4096_S4096x32_1_0 : S32x4096.Transposes [1, 0] S4096x32
  transposes_S32x32_S32x32_1_0 : S32x32.Transposes [1, 0] S32x32
  transposes_S4096x32_S32x4096_1_0 : S4096x32.Transposes [1, 0] S32x4096
  shapeCasts_S16384x4096_S8x2048x4096 : S16384x4096.ShapeCasts S8x2048x4096
  dot_S16384x4096_S4096x4096_S16384x4096_1_0_0_1_n_n_wf : DotDims.WF S16384x4096 S4096x4096 S16384x4096 [1] [0] [0] [1] [] []
  dot_S16384x4096_S4096x32_S16384x32_1_0_0_1_n_n_wf : DotDims.WF S16384x4096 S4096x32 S16384x32 [1] [0] [0] [1] [] []
  dot_S16384x32_S32x32_S16384x32_1_0_0_1_n_n_wf : DotDims.WF S16384x32 S32x32 S16384x32 [1] [0] [0] [1] [] []
  dot_S16384x32_S32x4096_S16384x4096_1_0_0_1_n_n_wf : DotDims.WF S16384x32 S32x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf

class Facts : Prop extends Facts₀ where

variable [Facts]
-- ==== Proof.BodyValue.lean ====
/-
  What one run of the kernel body leaves in the output's staging buffer, as a value.

  The body multiplies a [2048,1024] block of the left operand by the transpose of a [1024,1024] block of the right
  operand and adds the product to the [2048,1024] output block.  At the first step along the contraction axis it first
  overwrites the output block with zeros and reads them back, so that step leaves `0 + product`; at every later step
  it leaves `previous + product`.  Both are the same pure term `k0_pay2` of the two input blocks and of what the output
  block held when the addition read it.
-/
import proofs.«180984_j31903017075277_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

/-- The offsets `(0, 0)` of a load or store of a whole block. -/
theorem zero_offsets : (![0, 0] : Fin 2 → Nat) = fun _ => 0 := funext fun a => by fin_cases a <;> rfl

/-- A later step (contraction coordinate not 0): the output block held `acc`; the body leaves `acc + x · aᵀ`. -/
theorem later_step (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : ¬cond0_0 i) (x : Vec F S2048x1024 .bf16) (a : Vec F S1024x1024 .bf16) (acc : Vec F S2048x1024 .f32) :
    out0_B_2 c i a3 h3 a4 h4 a5 h5 hc x a acc = k0_pay2 x a acc := by
  unfold out0_B_2
  rw [View.read_writes_eq_canon _ _ _ (cover0_B_2 c i a3 h3 a4 h4 a5 h5 hc x a acc)]
  unfold kernelRun0_B
  dsimp only
  rw [View.canon_unit_zero zero_offsets]
  simp only [View.readAt_eq_ld, h3.read_unread, h4.read_unread, h5.read_unread,
    View.ld_unit_zero (S := S2048x1024) zero_offsets, View.ld_unit_zero (S := S1024x1024) zero_offsets]

/-- The first step (contraction coordinate 0): the body overwrites the output block with the zero block `k0_pay1`,
    reads it back, and leaves `0 + x · aᵀ`. -/
theorem first_step (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : cond0_0 i) (x : Vec F S2048x1024 .bf16) (a : Vec F S1024x1024 .bf16) :
    out0_A_2 c i a3 h3 a4 h4 a5 h5 hc x a = k0_pay2 x a k0_pay1 := by
  unfold out0_A_2
  rw [View.read_writes_eq_canon _ _ _ (cover0_A_2 c i a3 h3 a4 h4 a5 h5 hc x a)]
  unfold kernelRun0_A
  dsimp only
  sl_unfold_words
  rw [View.canon_cons_unit_zero (S := S2048x1024) zero_offsets, View.readCov_unit_zero (S := S2048x1024) _ zero_offsets]
  simp only [View.readAt_eq_ld, h3.read_unread, h4.read_unread,
    View.ld_unit_zero (S := S2048x1024) zero_offsets, View.ld_unit_zero (S := S1024x1024) zero_offsets]

end Cert.KernelIdeal.BodyValue

end
-- ==== Proof.Payload.lean ====
/-
  The body's arithmetic read at one entry, on the extended reals.

  With exact arithmetic the changes of float format are the identity and the matrix unit's product into a zero
  accumulator is a plain sum, so entry `(r, s)` of what the body stores is the entry of the accumulator plus
  `∑ q, x (r, q) · a (s, q)` over the 1024 contracted coordinates of the two input blocks.
-/
import proofs.«180984_j31903017075277_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The left block is read at the output's row and the contracted coordinate, -/
theorem lhs_row (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_contr (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
/-- and the right block at the output's column (its own ROW: the product is with the transpose) and the contracted
    coordinate. -/
theorem rhs_row (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_contr (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The block product at entry `(r, s)`: the contraction runs over the second coordinate of both blocks. -/
theorem matmul_entry (x : FVec Ideal S2048x1024 .bf16) (a : FVec Ideal S1024x1024 .bf16) (r : Fin 2048) (s : Fin 1024) :
    matmul dot_S2048x1024_S1024x1024_S2048x1024_1_1_0_0_n_n none x a (constant S2048x1024 .f32 0x00000000#32) (ix2 r s)
      = ∑ q : Fin 1024, x (ix2 r q) * a (ix2 s q) := by
  simp only [matmul]
  rw [Ideal.matmul_constant_zero_apply, ← Equiv.sum_comp (ValueIdx.contrEquiv1 dot_S2048x1024_S1024x1024_S2048x1024_1_1_0_0_n_n 1024 rfl rfl).symm]
  refine Finset.sum_congr rfl fun q _ => ?_
  have hq := ValueIdx.contrEquiv1_symm_val dot_S2048x1024_S1024x1024_S2048x1024_1_1_0_0_n_n 1024 rfl rfl q
  have el : dot_S2048x1024_S1024x1024_S2048x1024_1_1_0_0_n_n.lhsIdx (ix2 r s) ((ValueIdx.contrEquiv1 dot_S2048x1024_S1024x1024_S2048x1024_1_1_0_0_n_n 1024 rfl rfl).symm q) = ix2 r q :=
    funext fun d => Fin.ext (by
      match d with
      | ⟨0, _⟩ => exact lhs_row _ _
      | ⟨1, _⟩ => exact (lhs_contr _ _).trans hq)
  have er : dot_S2048x1024_S1024x1024_S2048x1024_1_1_0_0_n_n.rhsIdx (ix2 r s) ((ValueIdx.contrEquiv1 dot_S2048x1024_S1024x1024_S2048x1024_1_1_0_0_n_n 1024 rfl rfl).symm q) = ix2 s q :=
    funext fun d => Fin.ext (by
      match d with
      | ⟨0, _⟩ => exact rhs_row _ _
      | ⟨1, _⟩ => exact (rhs_contr _ _).trans hq)
  rw [el, er]

/-- What the body stores, at entry `(r, s)`: the accumulator's entry plus the block product's. -/
theorem stored_entry (x : Vec Ideal S2048x1024 .bf16) (a : Vec Ideal S1024x1024 .bf16) (acc : Vec Ideal S2048x1024 .f32)
    (r : Fin 2048) (s : Fin 1024) :
    k0_pay2 (F := Ideal) x a acc (ix2 r s) = acc (ix2 r s) + ∑ q : Fin 1024, x (ix2 r q) * a (ix2 s q) := by
  unfold k0_pay2
  simp only [shapeCast_self]
  exact congrArg (acc (ix2 r s) + ·) (matmul_entry x a r s)

/-- The zero block the first step stores is zero at every entry. -/
theorem zero_entry (j : S2048x1024.Idx) : k0_pay1 (F := Ideal) j = 0 := by
  unfold k0_pay1
  exact Ideal.ofBits_zero_f32

end Cert.KernelIdeal.Payload

end
-- ==== Proof.RowDot.lean ====
/-
  The product of a matrix with the transpose of another, entry by entry, and its partial sums along the contracted
  axis.

  `rowDot X W` at `(i, j)` is `∑ k, X (i, k) · W (j, k)`.  To speak of the part of that sum a blocked computation has
  accumulated so far, the two matrices are also read at natural-number coordinates (`at2`, zero outside the matrix) and
  the sum is taken over an initial segment of the contracted axis (`partialDot`).  Extending the segment by `b` more
  coordinates adds exactly the `b` products at those coordinates; this uses only that addition of extended reals is
  commutative and associative, so it needs no finiteness.
-/
import Idealize.ShloMosaic.PureOps.Ideal
import Idealize.ShloMosaic.Lib.ValueIdx

noncomputable section

namespace Cert.RowDot

open Idealize.ShloMosaic Idealize.ShloMosaic.ValueIdx

/-- A matrix read at natural-number coordinates: its entry inside the matrix, zero outside. -/
def at2 {A B : ℕ} (X : (⟨2, ![A, B]⟩ : Shape).Idx → EReal) (i k : ℕ) : EReal :=
  if h : i < A ∧ k < B then X (ix2 ⟨i, h.1⟩ ⟨k, h.2⟩) else 0

theorem at2_val {A B : ℕ} (X : (⟨2, ![A, B]⟩ : Shape).Idx → EReal) (i : Fin A) (k : Fin B) :
    at2 X i.val k.val = X (ix2 i k) := by
  unfold at2; rw [dif_pos ⟨i.isLt, k.isLt⟩]

theorem at2_of_lt {A B : ℕ} (X : (⟨2, ![A, B]⟩ : Shape).Idx → EReal) (i k : ℕ) (hi : i < A) (hk : k < B) :
    at2 X i k = X (ix2 ⟨i, hi⟩ ⟨k, hk⟩) := by
  unfold at2; rw [dif_pos ⟨hi, hk⟩]

/-- `X · Wᵀ`: entry `(i, j)` is the sum over `k` of `X (i, k) · W (j, k)`. -/
def rowDot {A B C : ℕ} (X : (⟨2, ![A, C]⟩ : Shape).Idx → EReal) (W : (⟨2, ![B, C]⟩ : Shape).Idx → EReal) :
    (⟨2, ![A, B]⟩ : Shape).Idx → EReal :=
  fun j => ∑ k : Fin C, X (ix2 (j 0) k) * W (ix2 (j 1) k)

/-- The part of entry `(i, j)`'s sum over the first `n` contracted coordinates. -/
def partialDot {A B C : ℕ} (X : (⟨2, ![A, C]⟩ : Shape).Idx → EReal) (W : (⟨2, ![B, C]⟩ : Shape).Idx → EReal)
    (i j n : ℕ) : EReal :=
  ∑ k ∈ Finset.range n, at2 X i k * at2 W j k

theorem partialDot_zero {A B C : ℕ} (X : (⟨2, ![A, C]⟩ : Shape).Idx → EReal) (W : (⟨2, ![B, C]⟩ : Shape).Idx → EReal)
    (i j : ℕ) : partialDot X W i j 0 = 0 := Finset.sum_range_zero _

/-- Extending the segment by `b` coordinates adds the `b` products at those coordinates. -/
theorem partialDot_add {A B C : ℕ} (X : (⟨2, ![A, C]⟩ : Shape).Idx → EReal) (W : (⟨2, ![B, C]⟩ : Shape).Idx → EReal)
    (i j a b : ℕ) :
    partialDot X W i j (a + b) = partialDot X W i j a + ∑ q : Fin b, at2 X i (a + q.val) * at2 W j (a + q.val) := by
  unfold partialDot
  rw [Finset.sum_range_add]
  exact congrArg _ (Finset.sum_range fun x => at2 X i (a + x) * at2 W j (a + x))

/-- Over the whole contracted axis the partial sum is the entry of `X · Wᵀ`. -/
theorem partialDot_full {A B C : ℕ} (X : (⟨2, ![A, C]⟩ : Shape).Idx → EReal) (W : (⟨2, ![B, C]⟩ : Shape).Idx → EReal)
    (i : Fin A) (j : Fin B) : partialDot X W i.val j.val C = rowDot X W (ix2 i j) := by
  unfold partialDot rowDot
  rw [Finset.sum_range]
  exact Finset.sum_congr rfl fun k _ => by rw [at2_val, at2_val]; rfl

end Cert.RowDot

end
-- ==== Proof.Blocks.lean ====
/-
  Where the blocks sit in the arrays.

  The grid has 8 × 4 × 4 points; point `t` has coordinates `(t / 16, t / 4 % 4, t % 4)`: a block of 2048 rows of the
  left operand, a block of 1024 rows of the right operand (1024 columns of the result), and a block of 1024 contracted
  coordinates.  Entry `(r, q)` of the left operand's block at `t` is entry `(2048 (t / 16) + r, 1024 (t % 4) + q)` of
  the array; entry `(s, q)` of the right operand's block is entry `(1024 (t / 4 % 4) + s, 1024 (t % 4) + q)`; the
  output block at `t` covers rows `2048 (t / 16) + r` and columns `1024 (t / 4 % 4) + s`.
-/
import proofs.«180984_j31903017075277_2_alg».proof.Proof.Gen.KernelIdeal.Frame
import proofs.«180984_j31903017075277_2_alg».proof.Proof.RowDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Cert.RowDot

namespace Cert.KernelIdeal.Blocks

open Cert.KernelIdeal Cert.KernelIdeal.Gen

/-- The three index maps at every grid point, decided once over the grid. -/
theorem index_maps : ∀ t : Fin cfg0.N,
    win0_0.index t 0 = t.val / 16 ∧ win0_0.index t 1 = t.val % 4
    ∧ win0_1.index t 0 = t.val / 4 % 4 ∧ win0_1.index t 1 = t.val % 4
    ∧ win0_2.index t 0 = t.val / 16 ∧ win0_2.index t 1 = t.val / 4 % 4 :=
  (by decide +kernel : ∀ t : Fin grid0.N,
    win0_0.index t 0 = t.val / 16 ∧ win0_0.index t 1 = t.val % 4
    ∧ win0_1.index t 0 = t.val / 4 % 4 ∧ win0_1.index t 1 = t.val % 4
    ∧ win0_2.index t 0 = t.val / 16 ∧ win0_2.index t 1 = t.val / 4 % 4)

variable (m : (ℓ : Loc nD τ sig) → Buf (Elt Ideal) ℓ)

/-- The left operand's block at point `t`, entry `(r, q)`. -/
theorem left_entry (c : Dev nD) (t : Fin cfg0.N) (r : Fin 2048) (q : Fin 1024) :
    (iblk m c 0 t : Vec Ideal S2048x1024 .bf16) (ix2 r q)
      = at2 (V m c main_v2) (2048 * (t.val / 16) + r.val) (1024 * (t.val % 4) + q.val) := by
  have hN : t.val < 128 := lt_of_lt_of_eq t.isLt N_0
  have hr := r.isLt
  have hq := q.isLt
  rw [at2_of_lt _ _ _ (by omega) (by omega)]
  obtain ⟨h0, h1, -, -, -, -⟩ := index_maps t
  unfold iblk
  rw [View.read_apply]
  show V m c main_v2 _ = V m c main_v2 _
  refine congrArg (V m c main_v2) ?_
  funext d
  apply Fin.ext
  match d with
  | ⟨0, _⟩ => show win0_0.index t 0 * 2048 + 1 * r.val = 2048 * (t.val / 16) + r.val; rw [h0]; omega
  | ⟨1, _⟩ => show win0_0.index t 1 * 1024 + 1 * q.val = 1024 * (t.val % 4) + q.val; rw [h1]; omega

/-- The right operand's block at point `t`, entry `(s, q)`. -/
theorem right_entry (c : Dev nD) (t : Fin cfg0.N) (s : Fin 1024) (q : Fin 1024) :
    (iblk m c 1 t : Vec Ideal S1024x1024 .bf16) (ix2 s q)
      = at2 (V m c main_v3) (1024 * (t.val / 4 % 4) + s.val) (1024 * (t.val % 4) + q.val) := by
  have hN : t.val < 128 := lt_of_lt_of_eq t.isLt N_0
  have hs := s.isLt
  have hq := q.isLt
  rw [at2_of_lt _ _ _ (by omega) (by omega)]
  obtain ⟨-, -, h0, h1, -, -⟩ := index_maps t
  unfold iblk
  rw [View.read_apply]
  show V m c main_v3 _ = V m c main_v3 _
  refine congrArg (V m c main_v3) ?_
  funext d
  apply Fin.ext
  match d with
  | ⟨0, _⟩ => show win0_1.index t 0 * 1024 + 1 * s.val = 1024 * (t.val / 4 % 4) + s.val; rw [h0]; omega
  | ⟨1, _⟩ => show win0_1.index t 1 * 1024 + 1 * q.val = 1024 * (t.val % 4) + q.val; rw [h1]; omega

end Cert.KernelIdeal.Blocks

end
-- ==== Proof.Accum.lean ====
/-
  The output block after each grid point: a partial sum along the contracted axis.

  The output's index map ignores the contraction coordinate, so the same output block stays in its staging buffer over
  the four consecutive points `4 u, 4 u + 1, 4 u + 2, 4 u + 3` and is written back after the last.  By induction on the
  point: after point `n` entry `(r, s)` of that buffer is the sum of `X (i, k) · W (j, k)` over the first
  `1024 (n % 4 + 1)` contracted coordinates `k`, where `i = 2048 (n / 16) + r` and `j = 1024 (n / 4 % 4) + s`.  At a
  point with `n % 4 = 0` the body starts from the zero block; at the others it continues from what the point before left,
  and moving from `n` to `n + 1` changes neither `i` nor `j`.
-/
import proofs.«180984_j31903017075277_2_alg».proof.Proof.BodyValue
import proofs.«180984_j31903017075277_2_alg».proof.Proof.Payload
import proofs.«180984_j31903017075277_2_alg».proof.Proof.Blocks

noncomputable section

open Idealize.ShloMosaic Idealize.ShloMosaic.TcCoe Idealize.SL.Sem Idealize.ShloMosaic.ValueIdx
open Cert.RowDot

namespace Cert.KernelIdeal.Accum

open Cert.KernelIdeal Cert.KernelIdeal.Gen

variable (m : (ℓ : Loc nD τ sig) → Buf (Elt Ideal) ℓ)

/-- The products one point adds: the block product of the point's two input blocks, as products of array entries. -/
theorem block_product (c : Dev nD) (t : Fin cfg0.N) (r : Fin 2048) (s : Fin 1024)
    (x : Vec Ideal S2048x1024 .bf16) (a : Vec Ideal S1024x1024 .bf16) (hx : x = iblk m c 0 t) (ha : a = iblk m c 1 t) :
    ∑ q : Fin 1024, x (ix2 r q) * a (ix2 s q)
      = ∑ q : Fin 1024, at2 (V m c main_v2) (2048 * (t.val / 16) + r.val) (1024 * (t.val % 4) + q.val)
          * at2 (V m c main_v3) (1024 * (t.val / 4 % 4) + s.val) (1024 * (t.val % 4) + q.val) :=
  Finset.sum_congr rfl fun q _ => by rw [hx, ha, Blocks.left_entry m c t r q, Blocks.right_entry m c t s q]

/-- A point that starts an output block (`t % 4 = 0`) leaves the sum over the first 1024 contracted coordinates. -/
theorem starting_point (c : Dev nD) (t : Fin cfg0.N) (h0 : t.val % 4 = 0) (r : Fin 2048) (s : Fin 1024) :
    outsAt0 m c t.val t.isLt (ix2 r s)
      = partialDot (V m c main_v2) (V m c main_v3) (2048 * (t.val / 16) + r.val) (1024 * (t.val / 4 % 4) + s.val)
          (1024 * (t.val % 4 + 1)) := by
  rw [outsAt0_A m c t h0]
  refine (congrFun (BodyValue.first_step (F := Ideal) c (grid0.coords t) (ms0_0 t) (hs0_0 t) (ms0_1 t) (hs0_1 t) (ms0_2 t) (hs0_2 t)
    ((hcond0_0 t).mpr h0) (iblk m c 0 t) (iblk m c 1 t)) (ix2 r s)).trans ?_
  refine (Payload.stored_entry (iblk m c 0 t) (iblk m c 1 t) (k0_pay1 (F := Ideal)) r s).trans ?_
  rw [Payload.zero_entry, zero_add, block_product m c t r s (iblk m c 0 t) (iblk m c 1 t) rfl rfl, h0,
    show 1024 * (0 + 1) = 0 + 1024 from rfl, partialDot_add, partialDot_zero, zero_add]

/-- After point `n` the output block holds the partial sums over the first `1024 (n % 4 + 1)` contracted coordinates. -/
theorem running_sum (c : Dev nD) (n : ℕ) : ∀ (h : n < cfg0.N) (r : Fin 2048) (s : Fin 1024),
    outsAt0 m c n h (ix2 r s)
      = partialDot (V m c main_v2) (V m c main_v3) (2048 * (n / 16) + r.val) (1024 * (n / 4 % 4) + s.val)
          (1024 * (n % 4 + 1)) := by
  induction n with
  | zero => intro h r s; exact starting_point m c ⟨0, h⟩ rfl r s
  | succ n ih =>
    intro h r s
    by_cases h0 : (n + 1) % 4 = 0
    · exact starting_point m c ⟨n + 1, h⟩ h0 r s
    · have hn : n < cfg0.N := Nat.lt_of_succ_lt h
      rw [outsAt0_B m c ⟨n + 1, h⟩ h0]
      refine (congrFun (BodyValue.later_step (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩)
        (fun hh => h0 ((hcond0_0 ⟨n + 1, h⟩).mp hh)) (iblk m c 0 ⟨n + 1, h⟩) (iblk m c 1 ⟨n + 1, h⟩)
        (outsAt0 m c ((⟨n + 1, h⟩ : Fin cfg0.N).val - 1) (Nat.lt_of_le_of_lt (Nat.sub_le _ _) (⟨n + 1, h⟩ : Fin cfg0.N).isLt))) (ix2 r s)).trans ?_
      refine (Payload.stored_entry (iblk m c 0 ⟨n + 1, h⟩) (iblk m c 1 ⟨n + 1, h⟩) _ r s).trans ?_
      show outsAt0 m c n hn (ix2 r s) + _ = _
      rw [ih hn r s, block_product m c ⟨n + 1, h⟩ r s (iblk m c 0 ⟨n + 1, h⟩) (iblk m c 1 ⟨n + 1, h⟩) rfl rfl]
      show partialDot _ _ (2048 * (n / 16) + r.val) (1024 * (n / 4 % 4) + s.val) (1024 * (n % 4 + 1))
          + ∑ q : Fin 1024, at2 (V m c main_v2) (2048 * ((n + 1) / 16) + r.val) (1024 * ((n + 1) % 4) + q.val)
              * at2 (V m c main_v3) (1024 * ((n + 1) / 4 % 4) + s.val) (1024 * ((n + 1) % 4) + q.val)
        = partialDot _ _ (2048 * ((n + 1) / 16) + r.val) (1024 * ((n + 1) / 4 % 4) + s.val) (1024 * ((n + 1) % 4 + 1))
      have e1 : (n + 1) / 16 = n / 16 := by omega
      have e2 : (n + 1) / 4 % 4 = n / 4 % 4 := by omega
      have e3 : 1024 * ((n + 1) % 4) = 1024 * (n % 4 + 1) := by omega
      have e4 : 1024 * ((n + 1) % 4 + 1) = 1024 * (n % 4 + 1) + 1024 := by omega
      rw [e1, e2, e3, e4, partialDot_add]

end Cert.KernelIdeal.Accum

end
-- ==== Proof.Final.lean ====
/-
  The result array of the kernel call after the run: `X · Wᵀ` of the two arrays the call was given.

  An output block is written back after the last of its four points (`t % 4 = 3`), when its partial sums run over all
  4096 contracted coordinates: what is written back is the block of `X · Wᵀ` at rows `2048 (t / 16) + r` and columns
  `1024 (t / 4 % 4) + s`.  The 8 × 4 output blocks tile the [16384, 4096] array — entry `(i, j)` lies in the block written
  back at point `16 (i / 2048) + 4 (j / 1024) + 3` —, so the array ends holding `X · Wᵀ` everywhere.
-/
import proofs.«180984_j31903017075277_2_alg».proof.Proof.Accum

noncomputable section

open Idealize.ShloMosaic Idealize.ShloMosaic.TcCoe Idealize.SL.Sem Idealize.ShloMosaic.ValueIdx
open Idealize.ShloMosaic.Pipeline (Dat)
open Cert.RowDot

namespace Cert.KernelIdeal.Final

open Cert.KernelIdeal Cert.KernelIdeal.Gen

variable (m : (ℓ : Loc nD τ sig) → Buf (Elt Ideal) ℓ)

/-- What the call's result array ends holding: the left array times the transpose of the right one. -/
abbrev product (c : Dev nD) : S16384x4096.Idx → EReal := rowDot (V m c main_v2) (V m c main_v3)

/-- What a write-back point writes is its block of the product. -/
theorem written_back (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 128 := lt_of_lt_of_eq t.isLt N_0
  obtain ⟨-, -, -, -, e0, e1⟩ := Blocks.index_maps t
  show (cfg0.win 2).cut (grid0.coords t) ((dats m 0 c).after 2 t) = _
  rw [after0_2]
  refine funext fun (y : S2048x1024.Idx) => ?_
  obtain ⟨r, s, rfl⟩ : ∃ (r : Fin 2048) (s : Fin 1024), y = ix2 r s := ⟨y 0, y 1, eq_ix2 y⟩
  have hr := r.isLt
  have hs := s.isLt
  show outsAt0 m c t.val t.isLt (ix2 r s) = product m c (((cfg0.win 2).blk t).view.emb (ix2 r s))
  rw [Accum.running_sum m c t.val t.isLt r s, h3]
  refine (partialDot_full (V m c main_v2) (V m c main_v3) ⟨2048 * (t.val / 16) + r.val, by omega⟩
    ⟨1024 * (t.val / 4 % 4) + s.val, by omega⟩).trans ?_
  refine congrArg (product m c) ?_
  funext d
  apply Fin.ext
  match d with
  | ⟨0, _⟩ => show 2048 * (t.val / 16) + r.val = win0_2.index t 0 * 2048 + 1 * r.val; rw [e0]; omega
  | ⟨1, _⟩ => show 1024 * (t.val / 4 % 4) + s.val = win0_2.index t 1 * 1024 + 1 * s.val; rw [e1]; omega

/-- An entry of the array is in point `t`'s output block iff each coordinate is in the block's range. -/
theorem mem_block (t : Fin cfg0.N) (i : S16384x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v4).slice (win0_2.rect t)).set ↔ _
  rw [View.set_slice_whole, Rect.mem_set_unit]
  exact Iff.rfl

/-- Every entry of the array is in a block that is written back. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hlt : 16 * ((i 0).val / 2048) + 4 * ((i 1).val / 1024) + 3 < cfg0.N := by
    rw [show cfg0.N = 128 from N_0]; omega
  refine ⟨⟨16 * ((i 0).val / 2048) + 4 * ((i 1).val / 1024) + 3, hlt⟩, (flush0_2 _).mpr (by show (16 * ((i 0).val / 2048) + 4 * ((i 1).val / 1024) + 3) % 4 = 3; omega), ?_⟩
  obtain ⟨-, -, -, -, e0, e1⟩ := Blocks.index_maps ⟨16 * ((i 0).val / 2048) + 4 * ((i 1).val / 1024) + 3, hlt⟩
  rw [mem_block]
  intro a
  match a with
  | ⟨0, _⟩ =>
    show win0_2.index _ 0 * 2048 ≤ (i 0).val ∧ (i 0).val < win0_2.index _ 0 * 2048 + 2048
    rw [e0]
    show (16 * ((i 0).val / 2048) + 4 * ((i 1).val / 1024) + 3) / 16 * 2048 ≤ (i 0).val
      ∧ (i 0).val < (16 * ((i 0).val / 2048) + 4 * ((i 1).val / 1024) + 3) / 16 * 2048 + 2048
    omega
  | ⟨1, _⟩ =>
    show win0_2.index _ 1 * 1024 ≤ (i 1).val ∧ (i 1).val < win0_2.index _ 1 * 1024 + 1024
    rw [e1]
    show (16 * ((i 0).val / 2048) + 4 * ((i 1).val / 1024) + 3) / 4 % 4 * 1024 ≤ (i 1).val
      ∧ (i 1).val < (16 * ((i 0).val / 2048) + 4 * ((i 1).val / 1024) + 3) / 4 % 4 * 1024 + 1024
    omega

/-- So the call's result array ends holding the product. -/
theorem result_array (c : Dev nD) : (dats m 0 c).arrAt 2 cfg0.N = product m c :=
  (dats m 0 c).arrAt_eq_of_cover 2 (product m c) (written_back m c) covered

end Cert.KernelIdeal.Final

end
-- ==== Proof.KernelRun.lean ====
/-
  The whole idealized kernel program, run: its result is `X · Wᵀ` reshaped, its arguments are unchanged.

  Before the kernel call the program reshapes the first argument to [16384, 4096] and the second to [4096, 4096] and
  changes both to bf16, which with exact arithmetic is the identity; so the call is given the two reshaped arguments.
  After the call the program reshapes the call's [16384, 4096] result to [8, 2048, 4096].
-/
import proofs.«180984_j31903017075277_2_alg».proof.Proof.Final
import Idealize.ShloMosaic.Lib.StableHlo.Run

noncomputable section

open Idealize.ShloMosaic Idealize.ShloMosaic.TcCoe Idealize.SL.Sem Idealize.ShloMosaic.ValueIdx
open Idealize.ShloMosaic.Pipeline (Dat)
open Cert.RowDot

namespace Cert.KernelIdeal.KernelRun

open Cert.KernelIdeal Cert.KernelIdeal.Gen

variable (m : (ℓ : Loc nD τ sig) → Buf (Elt Ideal) ℓ) (ρ : Dev nD → PrngReg)

/-- The left array the call is given: the first argument reshaped. -/
theorem left_array (c : Dev nD) :
    (V m c main_v2 : S16384x4096.Idx → EReal)
      = shapeCast S16384x4096 (m ((c.tc : Thread nD τ).loc main_arg0)) shapeCasts_S8x2048x4096_S16384x4096 := by
  show StableHlo.after hostOps0 (fun b => m (c, b)) (Proc.devRef .tc main_v2) = _
  after_results
  rfl

/-- The right array the call is given: the second argument reshaped. -/
theorem right_array (c : Dev nD) :
    (V m c main_v3 : S4096x4096.Idx → EReal)
      = shapeCast S4096x4096 (m ((c.tc : Thread nD τ).loc main_arg1)) shapeCasts_S16777216_S4096x4096 := by
  show StableHlo.after hostOps0 (fun b => m (c, b)) (Proc.devRef .tc main_v3) = _
  after_results
  rfl

/-- The program's result: the call's result array, reshaped. -/
theorem result_value (c : Dev nD) :
    Pipeline.afterTail₀ cfgs (dats m) 0 (V0 m) [hostOps1] c main_v5
      = shapeCast S8x2048x4096 (Final.product m c) shapeCasts_S16384x4096_S8x2048x4096 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = Final.product m c :=
    (Pipeline.withArrays_arr spec0 launch0.win.arr_inj c _ _ 2).trans (Final.result_array m c)
  rw [e]
  rfl

/-- The run of the idealized kernel program from a memory `m`: every weakly fair execution terminates with the
    result at `X · Wᵀ` reshaped — `X` and `W` the first two arguments reshaped to matrices — and the five arguments
    unchanged. -/
theorem run : θ_run defs (onTc (τ := τ) (main (F := Ideal))) ⟨m, fun _ => 0, ρ⟩ fun r => ∀ c : Dev nD,
      r.2.mem ((c.tc : Thread nD τ).loc main_v5)
        = shapeCast S8x2048x4096
            (rowDot (shapeCast S16384x4096 (m ((c.tc : Thread nD τ).loc main_arg0)) shapeCasts_S8x2048x4096_S16384x4096)
              (shapeCast S4096x4096 (m ((c.tc : Thread nD τ).loc main_arg1)) shapeCasts_S16777216_S4096x4096))
            shapeCasts_S16384x4096_S8x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v5 (Pipeline.mem_restRefs_of main_v5 (by decide) (by decide))).trans
        ((result_value m c).trans (by unfold Final.product; rw [left_array, right_array])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.RealSums.lean ====
/-
  Real numbers inside the extended reals.

  A sum of products of real numbers is a real number, and for real numbers `b + (a - b) = a`.  On the extended reals
  the cancellation fails at the infinities (`⊤ + (a - ⊤) = ⊥` when `a` is finite, by the convention `⊤ + ⊥ = ⊥`), so it is
  stated for entries known to be real.
-/
import Idealize.ShloMosaic.PureOps.Ideal

namespace Cert.RealSums

/-- The extended real `x` is a real number. -/
def IsReal (x : EReal) : Prop := ∃ r : ℝ, x = (r : EReal)

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type} (s : Finset ι) (f : ι → EReal) (h : ∀ i ∈ s, IsReal (f i)) : IsReal (∑ i ∈ s, f i) :=
  Finset.sum_induction f IsReal (fun _ _ => IsReal.add) IsReal.zero h

/-- A finite sum of products of real numbers is a real number. -/
theorem IsReal.sum_mul {ι : Type} [Fintype ι] (f g : ι → EReal) (hf : ∀ i, IsReal (f i)) (hg : ∀ i, IsReal (g i)) :
    IsReal (∑ i, f i * g i) :=
  IsReal.sum _ _ fun i _ => (hf i).mul (hg i)

/-- For real numbers `b + (a - b) = a`. -/
theorem add_sub_cancel_of_real {a b : EReal} (ha : IsReal a) (hb : IsReal b) : b + (a - b) = a := by
  obtain ⟨r, rfl⟩ := ha; obtain ⟨s, rfl⟩ := hb
  rw [← EReal.coe_sub, ← EReal.coe_add]
  exact congrArg _ (by ring)

end Cert.RealSums
-- ==== Proof.RefSide.lean ====
/-
  The reference, read: on arrays of real numbers it computes `X · Wᵀ`.

  The reference adds to the low-rank product `y_sm` the difference `y_bb - y_sm` of the full product `y_bb` and the
  low-rank one.  Every one of its matrix products is, entry by entry, a finite sum of products; of real numbers such a
  sum is a real number, and for real numbers `y_sm + (y_bb - y_sm) = y_bb`.  The full product contracts the reshaped
  first argument with the TRANSPOSE of the reshaped second one, so its entry `(i, j)` is `∑ k, X (i, k) · W (j, k)`.
-/
import proofs.«180984_j31903017075277_2_alg».proof.Proof.Gen.ReferenceIdeal.Read
import proofs.«180984_j31903017075277_2_alg».proof.Proof.RealSums
import proofs.«180984_j31903017075277_2_alg».proof.Proof.RowDot

noncomputable section

open Idealize.ShloMosaic Idealize.ShloMosaic.ValueIdx
open Cert.RealSums Cert.RowDot

namespace Cert.ReferenceIdeal.RefSide

open Cert.ReferenceIdeal Cert.ReferenceIdeal.Gen Cert.ReferenceIdeal.Read

/-- On real arguments the reference's last stage before the final reshape is the product of the reshaped first
    argument with the transpose of the reshaped second. -/
theorem sum_stage (x0 : (⟨S8x2048x4096, .f32⟩ : BufTy).Contents (Elt Ideal)) (x1 : (⟨S16777216, .f32⟩ : BufTy).Contents (Elt Ideal))
    (x2 : (⟨S4096x32, .f32⟩ : BufTy).Contents (Elt Ideal)) (x3 : (⟨S32x32, .f32⟩ : BufTy).Contents (Elt Ideal))
    (x4 : (⟨S32x4096, .f32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) :
    val_main_v11 (F := Ideal) x0 x1 x2 x3 x4 = rowDot (val_main_v0 (F := Ideal) x0) (val_main_v1 (F := Ideal) x1) := by
  have r0 : ∀ j, IsReal (val_main_v0 (F := Ideal) x0 j) := fun j => by rw [val_main_v0_apply]; exact h0 _
  have r1 : ∀ j, IsReal (val_main_v1 (F := Ideal) x1 j) := fun j => by rw [val_main_v1_apply]; exact h1 _
  have r2 : ∀ j, IsReal (val_main_v2 (F := Ideal) x1 j) := fun j => by rw [val_main_v2_apply]; exact r1 _
  have r3 : ∀ j, IsReal (val_main_v3 (F := Ideal) x0 x1 j) := fun j => by
    rw [val_main_v3_apply]; exact IsReal.sum_mul _ _ (fun _ => r0 _) (fun _ => r2 _)
  have r4 : ∀ j, IsReal (val_main_v4 (F := Ideal) x4 j) := fun j => by rw [val_main_v4_apply]; exact h4 _
  have r5 : ∀ j, IsReal (val_main_v5 (F := Ideal) x0 x4 j) := fun j => by
    rw [val_main_v5_apply]; exact IsReal.sum_mul _ _ (fun _ => r0 _) (fun _ => r4 _)
  have r6 : ∀ j, IsReal (val_main_v6 (F := Ideal) x3 j) := fun j => by rw [val_main_v6_apply]; exact h3 _
  have r7 : ∀ j, IsReal (val_main_v7 (F := Ideal) x0 x3 x4 j) := fun j => by
    rw [val_main_v7_apply]; exact IsReal.sum_mul _ _ (fun _ => r5 _) (fun _ => r6 _)
  have r8 : ∀ j, IsReal (val_main_v8 (F := Ideal) x2 j) := fun j => by rw [val_main_v8_apply]; exact h2 _
  have r9 : ∀ j, IsReal (val_main_v9 (F := Ideal) x0 x2 x3 x4 j) := fun j => by
    rw [val_main_v9_apply]; exact IsReal.sum_mul _ _ (fun _ => r7 _) (fun _ => r8 _)
  funext i
  rw [val_main_v11_apply, val_main_v10_apply]
  show val_main_v9 (F := Ideal) x0 x2 x3 x4 i + (val_main_v3 (F := Ideal) x0 x1 i - val_main_v9 (F := Ideal) x0 x2 x3 x4 i) = _
  rw [add_sub_cancel_of_real (r3 i) (r9 i), val_main_v3_apply]
  unfold rowDot
  refine Finset.sum_congr rfl fun k _ => ?_
  rw [val_main_v2_apply]
  have el : lidx_main_v3 i k = ix2 (i 0) k := funext fun a => by
    match a with
    | ⟨0, _⟩ => rfl
    | ⟨1, _⟩ => rfl
  have er : idx_main_v2 (ridx_main_v3 i k) = ix2 (i 1) k := funext fun a => by
    match a with
    | ⟨0, _⟩ => rfl
    | ⟨1, _⟩ => rfl
  rw [el, er]
  rfl

/-- So on real arguments the reference's result is that product, reshaped to [8, 2048, 4096]. -/
theorem result_eq (x0 : (⟨S8x2048x4096, .f32⟩ : BufTy).Contents (Elt Ideal)) (x1 : (⟨S16777216, .f32⟩ : BufTy).Contents (Elt Ideal))
    (x2 : (⟨S4096x32, .f32⟩ : BufTy).Contents (Elt Ideal)) (x3 : (⟨S32x32, .f32⟩ : BufTy).Contents (Elt Ideal))
    (x4 : (⟨S32x4096, .f32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) :
    val_main_v12 (F := Ideal) x0 x1 x2 x3 x4
      = shapeCast S8x2048x4096
          (rowDot (shapeCast S16384x4096 x0 shapeCasts_S8x2048x4096_S16384x4096)
            (shapeCast S4096x4096 x1 shapeCasts_S16777216_S4096x4096))
          shapeCasts_S16384x4096_S8x2048x4096 := by
  unfold val_main_v12
  rw [sum_stage x0 x1 x2 x3 x4 h0 h1 h2 h3 h4]
  rfl

end Cert.ReferenceIdeal.RefSide

end
-- ==== Proof.Finite.lean ====
/-
  The precondition, decoded: every entry of every argument array is a real number.

  The precondition is the conjunction, over the five arguments, of "`|x| < +∞` at every entry"; on the extended reals
  `|x| = max x (-x)` is `+∞` exactly at the two infinities, so every entry is a real number.
-/
import proofs.«180984_j31903017075277_2_alg».proof.Pre_finite_inputs
import proofs.«180984_j31903017075277_2_alg».proof.Proof.Gen.Pre_finite_inputs
import proofs.«180984_j31903017075277_2_alg».proof.Proof.RealSums
import Idealize.ShloMosaic.PureOps.Ideal
import Idealize.ShloMosaic.Lib.ReduceAll
import Idealize.ShloMosaic.Lib.Affine
import Idealize.ShloMosaic.Lib.ValueIdx

noncomputable section

open Idealize.ShloMosaic Cert.RealSums

namespace Cert.Finite

open Cert.Pre_finite_inputs Cert.Pre_finite_inputs.Facts

instance : Subsingleton S_.Idx := ⟨fun a b => funext fun d => d.elim0⟩

/-- The pattern the precondition compares against is `+∞`. -/
theorem inf_pattern : Ideal.ofBits .f32 0x7F800000#32 = (⊤ : EReal) := by simp [Ideal.ofBits, Ideal.ieee]

/-- An extended real whose absolute value is below `+∞` is a real number. -/
theorem isReal_of_abs_lt (x : EReal) (h : Ideal.cmp .olt (max x (-x)) (Ideal.ofBits .f32 0x7F800000#32) = 1#1) : IsReal x := by
  rw [inf_pattern] at h
  induction x using EReal.rec with
  | bot => simp [Ideal.cmp] at h
  | top => simp [Ideal.cmp] at h
  | coe r => exact ⟨r, rfl⟩

/-- One argument's conjunct: "every `|x i|` is below `+∞`", reduced by `and` to one bit, gives every entry real. -/
theorem entries_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ValueIdx.ix0 = 1#1) (i : s.Idx) : IsReal (x i) :=
  isReal_of_abs_lt (x i) (Host.reduce_andi_all _ _ hr hu ValueIdx.ix0 h i)

/-- The conjunction of two bits is one exactly when both are. -/
theorem both_one (a b : IVec S_ 1) (h : andi a b ValueIdx.ix0 = 1#1) : a ValueIdx.ix0 = 1#1 ∧ b ValueIdx.ix0 = 1#1 :=
  IntOp.andi_eq_one.mp h

/-- Where the precondition holds, every entry of every argument is a real number. -/
theorem all_real (x0 : FVec Ideal S8x2048x4096 .f32) (x1 : FVec Ideal S16777216 .f32) (x2 : FVec Ideal S4096x32 .f32)
    (x3 : FVec Ideal S32x32 .f32) (x4 : FVec Ideal S32x4096 .f32)
    (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h' := congrFun h ValueIdx.ix0
  dsimp only [fn, fn_part1] at h'
  obtain ⟨h0123, h4⟩ := both_one _ _ h'
  obtain ⟨h012, h3⟩ := both_one _ _ h0123
  obtain ⟨h01, h2⟩ := both_one _ _ h012
  obtain ⟨h0, h1⟩ := both_one _ _ h01
  exact ⟨entries_real x0 _ _ _ h0, entries_real x1 _ _ _ h1, entries_real x2 _ _ _ h2, entries_real x3 _ _ _ h3,
    entries_real x4 _ _ _ h4⟩

end Cert.Finite

end
-- ==== Proof.lean ====
/-
  The kernel computes `y = x₂ · Aᵀ` — `x₂` the first argument reshaped to [16384, 4096], `A` the second reshaped to
  [4096, 4096] — by a matrix unit on bf16 copies of `x₂` and `A`, blocked 8 × 4 × 4, the four blocks along the
  contracted axis accumulated into an f32 output block that is zeroed at the first of them.  The reference computes
  `y_sm + (y_bb - y_sm)` with `y_bb = x₂ · Aᵀ` and `y_sm` a low-rank product of `x₂` with the other three arguments.

  On the extended reals, with exact arithmetic:
  * the kernel's result is `∑ k, x₂ (i, k) · A (j, k)` at every `(i, j)`: the change to bf16 is the identity, a block
    product into a zero accumulator is a plain sum, and four partial sums over consecutive quarters of the contracted axis
    add up to the whole sum because addition is commutative and associative — no finiteness is needed for that;
  * the reference's result is the same sum WHERE THE INPUTS ARE FINITE: then `y_bb` and `y_sm` are real numbers and
    `y_sm + (y_bb - y_sm) = y_bb`.  At an infinite input the cancellation fails, so this side uses the precondition.
  Both programs end with the same reshape to [8, 2048, 4096].

  The frames of the two kernel programs are the generated ones; the reference's frame is its generated run with the
  result dropped; the idealized kernel is the kernel's own text read with exact arithmetic, so `preserves` is trivial.
-/
import proofs.«180984_j31903017075277_2_alg».proof.Defs
import proofs.«180984_j31903017075277_2_alg».proof.Proof.Gen.Kernel
import proofs.«180984_j31903017075277_2_alg».proof.Proof.Gen.Kernel.Skeleton
import proofs.«180984_j31903017075277_2_alg».proof.Proof.Gen.Kernel.Launch
import proofs.«180984_j31903017075277_2_alg».proof.Proof.Gen.Kernel.Points
import proofs.«180984_j31903017075277_2_alg».proof.Proof.Gen.Kernel.Frame
import proofs.«180984_j31903017075277_2_alg».proof.Proof.Gen.KernelIdeal
import proofs.«180984_j31903017075277_2_alg».proof.Proof.Gen.KernelIdeal.Skeleton
import proofs.«180984_j31903017075277_2_alg».proof.Proof.Gen.KernelIdeal.Launch
import proofs.«180984_j31903017075277_2_alg».proof.Proof.Gen.KernelIdeal.Points
import proofs.«180984_j31903017075277_2_alg».proof.Proof.Gen.KernelIdeal.Frame
import proofs.«180984_j31903017075277_2_alg».proof.Proof.Gen.ReferenceIdeal
import proofs.«180984_j31903017075277_2_alg».proof.Proof.Gen.ReferenceIdeal.Run
import proofs.«180984_j31903017075277_2_alg».proof.Proof.Gen.ReferenceIdeal.Read
import proofs.«180984_j31903017075277_2_alg».proof.Proof.Gen.Pre_finite_inputs
import proofs.«180984_j31903017075277_2_alg».proof.Proof.KernelRun
import proofs.«180984_j31903017075277_2_alg».proof.Proof.RefSide
import proofs.«180984_j31903017075277_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, all finite: the kernel program ends with `x₂ · Aᵀ` reshaped, and so
    does the reference, whose `y_sm + (y_bb - y_sm)` is `y_bb` on real numbers. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4⟩ := Cert.Finite.all_real _ _ _ _ _ (hpre c)
  rw [Cert.ReferenceIdeal.Read.val_main_v12_eq, (hagree c).1, (hagree c).2.1, (hagree c).2.2.1, (hagree c).2.2.2.1,
    (hagree c).2.2.2.2]
  exact Cert.ReferenceIdeal.RefSide.result_eq _ _ _ _ _ f0 f1 f2 f3 f4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
